-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S2000x256 : Shape := ⟨2, ![2000, 256]⟩
abbrev S2000x128 : Shape := ⟨2, ![2000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 128
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x64, .f32⟩
  | .hbm, ⟨70, _⟩ => ⟨S_, .f32⟩
  | .hbm, ⟨71, _⟩ => ⟨S1600000, .f32⟩
  | .hbm, ⟨72, _⟩ => ⟨S_, .f32⟩
  | .hbm, ⟨73, _⟩ => ⟨S100000, .f32⟩
  | .hbm, ⟨74, _⟩ => ⟨S1600000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000, .f32⟩
  | .hbm, ⟨105, _⟩ => ⟨S1600000, .f32⟩
  | .hbm, ⟨106, _⟩ => ⟨S1600000x1, .f32⟩
  | .hbm, ⟨107, _⟩ => ⟨S_, .i32⟩
  | .hbm, ⟨108, _⟩ => ⟨S1600000, .i32⟩
  | .hbm, ⟨109, _⟩ => ⟨S1600000, .i1⟩
  | .hbm, ⟨110, _⟩ => ⟨S_, .i32⟩
  | .hbm, ⟨111, _⟩ => ⟨S1600000, .i32⟩
  | .hbm, ⟨112, _⟩ => ⟨S1600000, .i32⟩
  | .hbm, ⟨113, _⟩ => ⟨S1600000, .i32⟩
  | .hbm, ⟨114, _⟩ => ⟨S1600000x1, .i32⟩
  | .hbm, ⟨115, _⟩ => ⟨S1600000x64, .f32⟩
  | .hbm, ⟨116, _⟩ => ⟨S1600000x64, .f32⟩
  | .hbm, ⟨117, _⟩ => ⟨S1600000x64, .f32⟩
  | .hbm, ⟨118, _⟩ => ⟨S_, .f32⟩
  | .hbm, ⟨119, _⟩ => ⟨S100000x64, .f32⟩
  | .hbm, ⟨120, _⟩ => ⟨S1600000x1, .i32⟩
  | .hbm, ⟨121, _⟩ => ⟨S100000x64, .f32⟩
  | .hbm, ⟨122, _⟩ => ⟨S100000, .f32⟩
  | .hbm, ⟨123, _⟩ => ⟨S100000x1, .f32⟩
  | .hbm, ⟨124, _⟩ => ⟨S100000x64, .f32⟩
  | .hbm, ⟨125, _⟩ => ⟨S100000x64, .f32⟩
  | .hbm, ⟨126, _⟩ => ⟨S1x64, .f32⟩
  | .hbm, ⟨127, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_call1_v0 : Ref sig .tc := ⟨.hbm, 84, rfl⟩
abbrev main_call1_v1 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_17 : Ref sig .tc := ⟨.hbm, 96, rfl⟩
abbrev main_v67 : Ref sig .tc := ⟨.hbm, 97, rfl⟩
abbrev main_v68 : Ref sig .tc := ⟨.hbm, 98, rfl⟩
abbrev main_c_18 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_19 : Ref sig .tc := ⟨.hbm, 107, rfl⟩
abbrev main_v76 : Ref sig .tc := ⟨.hbm, 108, rfl⟩
abbrev main_v77 : Ref sig .tc := ⟨.hbm, 109, rfl⟩
abbrev main_c_20 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_21 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x256_S256x128_S2000x128_1_0_0_1_n_n_wf : DotDims.WF S2000x256 S256x128 S2000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x64, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S1600000x1, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x64, .f32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S100000, .f32⟩
  | _ => ⟨S100000x256, .f32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_call3_cst : Ref sig .tc := ⟨.hbm, 135, rfl⟩
abbrev main_call3_v0 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's whole run with its result named.

  @main is eleven segments: stretches of host operations and four pipelined regions. Every segment leaves the
  TensorCore's unscoped buffers at contents that are a function of the contents it was entered with, so the final
  state's buffers are the last boundary's contents, a fold through @main from the launch memory. The frame claim keeps
  of that fold only the six argument arrays; here the result buffer is kept as well, still under the fold's name.
  What that name holds, index by index, is read off segment by segment in the modules that follow.
-/
import proofs.«117166_j67396626808850_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the last boundary's
    contents and the six argument arrays end as launched. -/
theorem run_named : θ_run defs (onTc (τ := τ) (main (F := F))) ⟨m, fun _ => 0, ρ⟩ (fun r => ∀ c : Dev nD,
      r.2.mem ((c.tc : Thread nD τ).loc main_v93) = W11 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v93 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Whole

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Linear0.lean ====
/-
  Region 0 as one whole-array function: the first layer's linear map.

  The region walks the 100000 rows of `x` in 50 blocks of 2000 rows. At block `t` its body multiplies rows
  2000·t … 2000·t + 1999 of `x` by the whole of `W1` into a zero accumulator, and writes the product back as rows
  2000·t … of the output. Over the extended reals a change of float format is the identity and the product's entry
  (p, q) is the sum over the shared axis of x (p, k) · W1 (k, q); that sum mentions row p of `x` only, so the blocks
  are the restrictions of ONE function of the whole arrays, and since the 50 blocks tile the rows the output array
  ends holding that function.
-/
import proofs.«117166_j67396626808850_1_alg».proof.Proof.Gen.KernelIdeal.Frame
import proofs.«117166_j67396626808850_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Linear0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The rows-by-columns product of two whole arrays over the extended reals, entry by entry. -/
def prod (x : S100000x256.Idx → EReal) (w : S256x128.Idx → EReal) : S100000x128.Idx → EReal :=
  fun i => ∑ k : Fin 256, x (ix2 (i 0) k) * w (ix2 k (i 1))

theorem hz : (![0, 0] : Fin 2 → Nat) = fun _ => 0 := funext fun a => by fin_cases a <;> rfl

/-- The body's stored value at (p, q): the format changes drop out and the product into the zero accumulator is the
    sum over the shared axis. -/
theorem pay_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  exact Cert.LibPlainMatmul.matmul_zero_plain _ _ _ p q

/-- Where the windows' blocks sit: block `t` of `x` and of the output starts at row 2000·t, column 0; the weight's
    one block is the whole of it. Decided once over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left operand `x` as the region finds it, as a function on its index type. -/
abbrev inL (c : Dev nD) : S100000x256.Idx → EReal := V c main_arg0
/-- The right operand `W1` as the region finds it. -/
abbrev inR (c : Dev nD) : S256x128.Idx → EReal := V c main_arg2

/-- What point `t` writes back is block `t` of the product of the arrays as the region finds them. -/
theorem flushed_eq (c : Dev nD) (t : Fin cfg0.N) :
    (dat0 (F := Ideal) V c).flushed 2 t
      = ((cfg0.win 2).blk t).view.read (Elt Ideal) (prod (inL V c) (inR V c)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e00, e01, e10, e11, e20, e21⟩ := idx_facts t
  funext j
  obtain ⟨p, q, rfl⟩ : ∃ (p : Fin 2000) (q : Fin 128), j = ix2 p q := ⟨j 0, j 1, eq_ix2 j⟩
  refine (pay_apply _ _ p q).trans ?_
  show (∑ k : Fin 256, inL V c (((cfg0.win 0).blk t).view.emb (ix2 p k)) * inR V c (((cfg0.win 1).blk t).view.emb (ix2 k q)))
      = ∑ k : Fin 256, inL V c (ix2 ((((cfg0.win 2).blk t).view.emb (ix2 p q)) 0) k) * inR V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]
  rfl

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row r is in the block of point r / 2000: the 50 blocks tile the 100000 rows. -/
theorem cover (i : S100000x128.Idx) : ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  refine ⟨⟨(i 0).val / 2000, by rw [hN]; omega⟩, flush0_2 _, ?_⟩
  rw [mem_blk]
  obtain ⟨-, -, -, -, e20, e21⟩ := idx_facts ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e21]; omega

/-- The output array after the region: the product of `x` and `W1` as the region finds them. -/
theorem arr (c : Dev nD) : (dat0 (F := Ideal) V c).arrAt 2 cfg0.N = prod (inL V c) (inR V c) :=
  (dat0 V c).arrAt_eq_of_cover 2 (prod (inL V c) (inR V c)) (fun t _ => flushed_eq V c t) cover

end Cert.KernelIdeal.Linear0

end
-- ==== Proof.FirstProduct.lean ====
/-
  The boundary after region 0, read against the reference's stages.

  Before region 0 the host only cuts the edge array into its two rows, the sources and the targets. Region 0 then
  leaves h = x · W1 in its output array (the blocked product is the whole product). So at the boundary after the region
  the buffer of h holds what the reference's `dot_general` computes — both are, entry by entry, the sum over the
  shared axis of x (p, k) · W1 (k, q) on the extended reals —, the two edge rows hold the reference's two slices, and the
  argument arrays hold their launch contents.
-/
import proofs.«117166_j67396626808850_1_alg».proof.Proof.Linear0
import proofs.«117166_j67396626808850_1_alg».proof.Proof.RefRead

set_option maxRecDepth 16384

noncomputable section

namespace Cert.KernelIdeal.FirstProduct

open Cert.KernelIdeal Cert.KernelIdeal.Gen Cert.ReferenceIdeal.ReadP
open Idealize.ShloMosaic Idealize.ShloMosaic.TcCoe Idealize.ShloMosaic.ValueIdx Idealize.ShloMosaic.StableHlo Idealize.SL.Sem
open scoped BigOperators

/-- The kernel's whole-array product is the reference's `dot_general` stage: the same sum at every entry. -/
theorem prod_eq (x0 : (⟨Cert.ReferenceIdeal.S100000x256, .f32⟩ : BufTy).Contents (Elt Ideal))
    (x2 : (⟨Cert.ReferenceIdeal.S256x128, .f32⟩ : BufTy).Contents (Elt Ideal)) :
    Linear0.prod x0 x2 = val_main_v4 (F := Ideal) x0 x2 := by
  funext i
  rw [val_main_v4_apply]
  show (∑ k : Fin 256, x0 (ix2 (i 0) k) * x2 (ix2 k (i 1))) = _
  refine Finset.sum_congr rfl fun k _ => ?_
  have el : ix2 (i 0) k = lidx_main_v4 i k := funext fun a => Fin.ext (by
    match a with
    | ⟨0, _⟩ => rfl
    | ⟨1, _⟩ => rfl)
  have er : ix2 k (i 1) = ridx_main_v4 i k := funext fun a => Fin.ext (by
    match a with
    | ⟨0, _⟩ => rfl
    | ⟨1, _⟩ => rfl)
  exact congrArg₂ (· * ·) (congrArg x0 el) (congrArg x2 er)

variable (m : (ℓ : Loc nD τ sig) → Buf (Elt Ideal) ℓ) (ρ : Dev nD → PrngReg) (c : Dev nD)

/-- The six argument arrays at launch, on core `c`. -/
abbrev a0 : (⟨Cert.ReferenceIdeal.S100000x256, .f32⟩ : BufTy).Contents (Elt Ideal) := m ((c : Thread nD τ).loc main_arg0)
abbrev a1 : (⟨Cert.ReferenceIdeal.S2x1600000, .i32⟩ : BufTy).Contents (Elt Ideal) := m ((c : Thread nD τ).loc main_arg1)
abbrev a2 : (⟨Cert.ReferenceIdeal.S256x128, .f32⟩ : BufTy).Contents (Elt Ideal) := m ((c : Thread nD τ).loc main_arg2)
abbrev a3 : (⟨Cert.ReferenceIdeal.S128, .f32⟩ : BufTy).Contents (Elt Ideal) := m ((c : Thread nD τ).loc main_arg3)
abbrev a4 : (⟨Cert.ReferenceIdeal.S128x64, .f32⟩ : BufTy).Contents (Elt Ideal) := m ((c : Thread nD τ).loc main_arg4)
abbrev a5 : (⟨Cert.ReferenceIdeal.S64, .f32⟩ : BufTy).Contents (Elt Ideal) := m ((c : Thread nD τ).loc main_arg5)

/-! ## Region 0's entry: the first stretch only cuts the edge array -/

theorem entry_arg0 : W1 m ρ c (Proc.devRef .tc main_arg0) = a0 m c := by
  after_results_simp <;> rfl
theorem entry_arg2 : W1 m ρ c (Proc.devRef .tc main_arg2) = a2 m c := by
  after_results_simp <;> rfl
theorem entry_arg3 : W1 m ρ c (Proc.devRef .tc main_arg3) = a3 m c := by
  after_results_simp <;> rfl
theorem entry_arg4 : W1 m ρ c (Proc.devRef .tc main_arg4) = a4 m c := by
  after_results_simp <;> rfl
theorem entry_arg5 : W1 m ρ c (Proc.devRef .tc main_arg5) = a5 m c := by
  after_results_simp <;> rfl
/-- The source row of the edge array. -/
theorem entry_src : W1 m ρ c (Proc.devRef .tc main_v1) = val_main_v1 (F := Ideal) (a1 m c) := by
  after_results_simp <;> rfl
/-- The target row of the edge array. -/
theorem entry_dst : W1 m ρ c (Proc.devRef .tc main_v3) = val_main_v3 (F := Ideal) (a1 m c) := by
  after_results_simp <;> rfl

/-! ## Region 0's exit -/

/-- h = x · W1, as the reference computes it. -/
theorem exit_h : W2 m ρ c (Proc.devRef .tc main_v4) = val_main_v4 (F := Ideal) (a0 m c) (a2 m c) := by
  refine (W2_arr m ρ c 2).trans ?_
  refine (Linear0.arr (V1 m ρ) c).trans ?_
  show Linear0.prod (W1 m ρ c (Proc.devRef .tc main_arg0)) (W1 m ρ c (Proc.devRef .tc main_arg2)) = _
  rw [entry_arg0, entry_arg2]
  exact prod_eq _ _
theorem exit_src : W2 m ρ c (Proc.devRef .tc main_v1) = val_main_v1 (F := Ideal) (a1 m c) :=
  (W2_of_ne m ρ c main_v1 (by decide)).trans (entry_src m ρ c)
theorem exit_dst : W2 m ρ c (Proc.devRef .tc main_v3) = val_main_v3 (F := Ideal) (a1 m c) :=
  (W2_of_ne m ρ c main_v3 (by decide)).trans (entry_dst m ρ c)
theorem exit_arg3 : W2 m ρ c (Proc.devRef .tc main_arg3) = a3 m c :=
  (W2_of_ne m ρ c main_arg3 (by decide)).trans (entry_arg3 m ρ c)
theorem exit_arg4 : W2 m ρ c (Proc.devRef .tc main_arg4) = a4 m c :=
  (W2_of_ne m ρ c main_arg4 (by decide)).trans (entry_arg4 m ρ c)
theorem exit_arg5 : W2 m ρ c (Proc.devRef .tc main_arg5) = a5 m c :=
  (W2_of_ne m ρ c main_arg5 (by decide)).trans (entry_arg5 m ρ c)

end Cert.KernelIdeal.FirstProduct

end
-- ==== Proof.WhereCalls.lean ====
/-
  The values of the called function `_where` (the normalization d^(-1/2) where d > 0, and 0 elsewhere; called once
  per layer).

  A called function's operations keep each value at the value's own tensor type and move it to and from its buffer's
  type along the equation "this buffer's type is that tensor type", which holds by computation for each buffer the
  call names. Moving along such an equation changes nothing: the contents moved are the contents. One statement per
  buffer and direction, so that the reading of a host stretch can drop the moves before it is compared with the
  reference's stages.
-/
import proofs.«117166_j67396626808850_1_alg».proof.Proof.Gen.KernelIdeal.Frame

set_option maxRecDepth 16384

noncomputable section

namespace Cert.KernelIdeal.WhereCalls

open Cert.KernelIdeal Cert.KernelIdeal.Gen
open Idealize.ShloMosaic Idealize.ShloMosaic.TcCoe Idealize.ShloMosaic.StableHlo Idealize.SL.Sem

variable {Val : EltTy → Type}

theorem to_main_v14 (v : (⟨S100000, .f32⟩ : BufTy).Contents Val) : (TRef.of (sig := sig) (T := ⟨S100000, .f32⟩) main_v14).toBuf v = v := rfl
theorem of_main_v14 (v : (⟨S100000, .f32⟩ : BufTy).Contents Val) : (TRef.of (sig := sig) (T := ⟨S100000, .f32⟩) main_v14).ofBuf v = v := rfl
theorem to_main_v12 (v : (⟨S100000, .i1⟩ : BufTy).Contents Val) : (TRef.of (sig := sig) (T := ⟨S100000, .i1⟩) main_v12).toBuf v = v := rfl
theorem of_main_v12 (v : (⟨S100000, .i1⟩ : BufTy).Contents Val) : (TRef.of (sig := sig) (T := ⟨S100000, .i1⟩) main_v12).ofBuf v = v := rfl
theorem to_main_v13 (v : (⟨S100000, .f32⟩ : BufTy).Contents Val) : (TRef.of (sig := sig) (T := ⟨S100000, .f32⟩) main_v13).toBuf v = v := rfl
theorem of_main_v13 (v : (⟨S100000, .f32⟩ : BufTy).Contents Val) : (TRef.of (sig := sig) (T := ⟨S100000, .f32⟩) main_v13).ofBuf v = v := rfl
theorem to_main_call0_v1 (v : (⟨S100000, .f32⟩ : BufTy).Contents Val) : (TRef.of (sig := sig) (T := ⟨S100000, .f32⟩) main_call0_v1).toBuf v = v := rfl
theorem of_main_call0_v1 (v : (⟨S100000, .f32⟩ : BufTy).Contents Val) : (TRef.of (sig := sig) (T := ⟨S100000, .f32⟩) main_call0_v1).ofBuf v = v := rfl
theorem to_main_call0_v0 (v : (⟨S_, .f32⟩ : BufTy).Contents Val) : (TRef.of (sig := sig) (T := ⟨S_, .f32⟩) main_call0_v0).toBuf v = v := rfl
theorem of_main_call0_v0 (v : (⟨S_, .f32⟩ : BufTy).Contents Val) : (TRef.of (sig := sig) (T := ⟨S_, .f32⟩) main_call0_v0).ofBuf v = v := rfl
theorem to_main_cst_3 (v : (⟨S_, .f32⟩ : BufTy).Contents Val) : (TRef.of (sig := sig) (T := ⟨S_, .f32⟩) main_cst_3).toBuf v = v := rfl
theorem of_main_cst_3 (v : (⟨S_, .f32⟩ : BufTy).Contents Val) : (TRef.of (sig := sig) (T := ⟨S_, .f32⟩) main_cst_3).ofBuf v = v := rfl
theorem to_main_v59 (v : (⟨S100000, .f32⟩ : BufTy).Contents Val) : (TRef.of (sig := sig) (T := ⟨S100000, .f32⟩) main_v59).toBuf v = v := rfl
theorem of_main_v59 (v : (⟨S100000, .f32⟩ : BufTy).Contents Val) : (TRef.of (sig := sig) (T := ⟨S100000, .f32⟩) main_v59).ofBuf v = v := rfl
theorem to_main_v57 (v : (⟨S100000, .i1⟩ : BufTy).Contents Val) : (TRef.of (sig := sig) (T := ⟨S100000, .i1⟩) main_v57).toBuf v = v := rfl
theorem of_main_v57 (v : (⟨S100000, .i1⟩ : BufTy).Contents Val) : (TRef.of (sig := sig) (T := ⟨S100000, .i1⟩) main_v57).ofBuf v = v := rfl
theorem to_main_v58 (v : (⟨S100000, .f32⟩ : BufTy).Contents Val) : (TRef.of (sig := sig) (T := ⟨S100000, .f32⟩) main_v58).toBuf v = v := rfl
theorem of_main_v58 (v : (⟨S100000, .f32⟩ : BufTy).Contents Val) : (TRef.of (sig := sig) (T := ⟨S100000, .f32⟩) main_v58).ofBuf v = v := rfl
theorem to_main_call1_v1 (v : (⟨S100000, .f32⟩ : BufTy).Contents Val) : (TRef.of (sig := sig) (T := ⟨S100000, .f32⟩) main_call1_v1).toBuf v = v := rfl
theorem of_main_call1_v1 (v : (⟨S100000, .f32⟩ : BufTy).Contents Val) : (TRef.of (sig := sig) (T := ⟨S100000, .f32⟩) main_call1_v1).ofBuf v = v := rfl
theorem to_main_call1_v0 (v : (⟨S_, .f32⟩ : BufTy).Contents Val) : (TRef.of (sig := sig) (T := ⟨S_, .f32⟩) main_call1_v0).toBuf v = v := rfl
theorem of_main_call1_v0 (v : (⟨S_, .f32⟩ : BufTy).Contents Val) : (TRef.of (sig := sig) (T := ⟨S_, .f32⟩) main_call1_v0).ofBuf v = v := rfl
theorem to_main_cst_14 (v : (⟨S_, .f32⟩ : BufTy).Contents Val) : (TRef.of (sig := sig) (T := ⟨S_, .f32⟩) main_cst_14).toBuf v = v := rfl
theorem of_main_cst_14 (v : (⟨S_, .f32⟩ : BufTy).Contents Val) : (TRef.of (sig := sig) (T := ⟨S_, .f32⟩) main_cst_14).ofBuf v = v := rfl

end Cert.KernelIdeal.WhereCalls

end
-- ==== Proof.FirstAggregate.lean ====
/-
  Region 1's entry, read against the reference's stages.

  Between regions 0 and 1 the host computes, from h = x · W1 and the two edge rows, the two arrays the first epilogue
  adds: the sum over incoming edges of h (source) · d(source)^(-1/2) · d(target)^(-1/2), scattered to the targets, and
  the self-loop term h · d^(-1), where d is one plus the number of incoming edges. The kernel and the reference spell
  this stretch with the same operations on the same operands, literal for literal; since the operands agree at the
  boundary after region 0, the results agree. The bias reaches the region re-laid as a one-row matrix. The buffers
  later segments read are not written here.

  The stretch is read in three steps, at its own cuts. First the degree, its test d > 0 and d^(-1/2). Then the called
  function that selects d^(-1/2) where the test holds and 0 elsewhere: its values are moved between their tensor type
  and their buffers' types, and those moves are dropped there, once its operands are known to be the reference's
  stages. Then the rest, in which the normalization enters only as that one array.
-/
import proofs.«117166_j67396626808850_1_alg».proof.Proof.FirstProduct
import proofs.«117166_j67396626808850_1_alg».proof.Proof.WhereCalls

set_option maxRecDepth 16384

noncomputable section

namespace Cert.KernelIdeal.FirstAggregate

open Cert.KernelIdeal Cert.KernelIdeal.Gen Cert.ReferenceIdeal.ReadP Cert.KernelIdeal.FirstProduct
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the call: the degree's test and its inverse square root -/

set_option maxHeartbeats 1000000 in
/-- Where the degree is positive. -/
theorem mid_pos : W3 m ρ c (Proc.devRef .tc main_v12) = val_main_v12 (F := Ideal) (a1 m c) := by
  after_results_simp
  rw [exit_dst]
  rfl
set_option maxHeartbeats 1000000 in
/-- d^(-1/2). -/
theorem mid_rsqrt : W3 m ρ c (Proc.devRef .tc main_v13) = val_main_v13 (F := Ideal) (a1 m c) := by
  after_results_simp
  rw [exit_dst]
  rfl
set_option maxHeartbeats 1000000 in
theorem mid_zero : W3 m ρ c (Proc.devRef .tc main_cst_3) = val_main_cst_3 (F := Ideal) := by
  after_results_simp
  rfl

/-! ## After the call: the normalization, and what the call leaves alone -/

set_option maxHeartbeats 1000000 in
/-- d^(-1/2) where d > 0, and 0 elsewhere. -/
theorem call_dinv : W4 m ρ c (Proc.devRef .tc main_v14) = val_main_v14 (F := Ideal) (a1 m c) := by
  have h12 := mid_pos m ρ c
  have h13 := mid_rsqrt m ρ c
  have h0 := mid_zero m ρ c
  show StableHlo.after hostOps1_1 (W3 m ρ c) (Proc.devRef .tc main_v14) = _
  generalize W3 m ρ c = Wv at h12 h13 h0 ⊢
  after_results_simp
  rw [h12, h13, h0]
  refine (WhereCalls.to_main_v14 _).trans ?_
  show select (val_main_v12 (F := Ideal) (a1 m c)) (val_main_v13 (F := Ideal) (a1 m c))
      (broadcastInDim S100000 ![] bcast_S_S100000 (val_main_cst_3 (F := Ideal))) = _
  rfl
set_option maxHeartbeats 1000000 in
theorem call_h : W4 m ρ c (Proc.devRef .tc main_v4) = val_main_v4 (F := Ideal) (a0 m c) (a2 m c) := by
  after_results_simp
  exact exit_h m ρ c
set_option maxHeartbeats 1000000 in
theorem call_src : W4 m ρ c (Proc.devRef .tc main_v1) = val_main_v1 (F := Ideal) (a1 m c) := by
  after_results_simp
  exact exit_src m ρ c
set_option maxHeartbeats 1000000 in
theorem call_dst : W4 m ρ c (Proc.devRef .tc main_v3) = val_main_v3 (F := Ideal) (a1 m c) := by
  after_results_simp
  exact exit_dst m ρ c

/-! ## Region 1's entry -/

set_option maxHeartbeats 2000000 in
/-- The normalized sum over incoming edges. -/
theorem entry_agg : W5 m ρ c (Proc.devRef .tc main_v42) = val_main_v42 (F := Ideal) (a0 m c) (a1 m c) (a2 m c) := by
  have h14 := call_dinv m ρ c
  have h4 := call_h m ρ c
  have h1 := call_src m ρ c
  have h3 := call_dst m ρ c
  show StableHlo.after hostOps1_2 (W4 m ρ c) (Proc.devRef .tc main_v42) = _
  generalize W4 m ρ c = Wv at h14 h4 h1 h3 ⊢
  after_results_simp
  rw [h14, h4, h1, h3]
  rfl

set_option maxHeartbeats 2000000 in
/-- The self-loop term. -/
theorem entry_self : W5 m ρ c (Proc.devRef .tc main_v46) = val_main_v46 (F := Ideal) (a0 m c) (a1 m c) (a2 m c) := by
  have h14 := call_dinv m ρ c
  have h4 := call_h m ρ c
  show StableHlo.after hostOps1_2 (W4 m ρ c) (Proc.devRef .tc main_v46) = _
  generalize W4 m ρ c = Wv at h14 h4 ⊢
  after_results_simp
  rw [h14, h4]
  rfl

set_option maxHeartbeats 1000000 in
/-- The bias, re-laid as a one-row matrix. -/
theorem entry_bias : W5 m ρ c (Proc.devRef .tc main_v47) = (shapeCast S1x128 (a3 m c) shapeCasts_S128_S1x128 : S1x128.Idx → EReal) := by
  after_results_simp
  rw [exit_arg3]
  rfl

set_option maxHeartbeats 1000000 in
theorem entry_arg4 : W5 m ρ c (Proc.devRef .tc main_arg4) = a4 m c := by
  after_results_simp
  exact exit_arg4 m ρ c
set_option maxHeartbeats 1000000 in
theorem entry_arg5 : W5 m ρ c (Proc.devRef .tc main_arg5) = a5 m c := by
  after_results_simp
  exact exit_arg5 m ρ c
set_option maxHeartbeats 1000000 in
theorem entry_src : W5 m ρ c (Proc.devRef .tc main_v1) = val_main_v1 (F := Ideal) (a1 m c) := by
  after_results_simp
  exact exit_src m ρ c
set_option maxHeartbeats 1000000 in
theorem entry_dst : W5 m ρ c (Proc.devRef .tc main_v3) = val_main_v3 (F := Ideal) (a1 m c) := by
  after_results_simp
  exact exit_dst m ρ c

end Cert.KernelIdeal.FirstAggregate

end
-- ==== Proof.Epilogue1.lean ====
/- The first epilogue region, read as ONE function of the arrays it finds.

   The region walks the 100000 rows of three arrays in 50 blocks of 2000 rows. At block t it holds rows
   2000 t … 2000 t + 1999 of the aggregate and of the scaled features, and the whole bias row; it leaves
   max ((agg + hscaled) + bias, 0) in the same rows of the output. Every entry of the output therefore depends
   only on the entries of the two inputs at the SAME index and on the bias at the same column, and the 50 row
   blocks tile the array: after the region the output is that one function of the entry contents. -/
import proofs.«117166_j67396626808850_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Epilogue1

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-- The zero offsets of a whole-buffer access, as the constant function. -/
theorem zeros : (![0, 0] : Fin 2 → Nat) = fun _ => 0 := funext fun a => by fin_cases a <;> rfl

/-- The output as one function of the three arrays: entry (r, k) is max ((a0 (r, k) + a1 (r, k)) + b (0, k), 0). -/
abbrev G (a0 a1 : S100000x128.Idx → Ideal .f32) (b : S1x128.Idx → Ideal .f32) : S100000x128.Idx → Ideal .f32 :=
  fun i => FloatOps.maximumf (F := Ideal) (FloatOps.addf (F := Ideal) (FloatOps.addf (F := Ideal) (a0 i) (a1 i)) (b (ix2 (0 : Fin 1) (i 1))))
    (FloatOps.ofBits (F := Ideal) .f32 0x00000000#32)

/-- What the body stores, read at entry (p, q) of a block: the two row blocks added at (p, q), the bias row added at
    column q (the one row is repeated down the 2000 rows), and the maximum with zero. -/
theorem pay_apply (x0 x1 : Vec Ideal S2000x128 .f32) (x2 : Vec Ideal S1x128 .f32) (p : Fin 2000) (q : Fin 128) :
    k1_pay1 x0 x1 x2 (ix2 p q)
      = FloatOps.maximumf (F := Ideal) (FloatOps.addf (F := Ideal) (FloatOps.addf (F := Ideal) (x0 (ix2 p q)) (x1 (ix2 p q))) (x2 (ix2 (0 : Fin 1) q)))
          (FloatOps.ofBits (F := Ideal) .f32 0x00000000#32) := by
  unfold k1_pay1
  show FloatOps.maximumf (F := Ideal) (FloatOps.addf (F := Ideal) (FloatOps.addf (F := Ideal) (shapeCast S2000x128 x0 _ (ix2 p q)) (shapeCast S2000x128 x1 _ (ix2 p q)))
      (broadcastTo S2000x128 (shapeCast S1x128 x2 _) _ (ix2 p q))) _ = _
  rw [shapeCast_self, shapeCast_self, shapeCast_self, broadcastTo_1b_ab_apply]
  rfl

/-- The same at any index of the block. -/
theorem pay_at (x0 x1 : Vec Ideal S2000x128 .f32) (x2 : Vec Ideal S1x128 .f32) (y : S2000x128.Idx) :
    k1_pay1 x0 x1 x2 y
      = FloatOps.maximumf (F := Ideal) (FloatOps.addf (F := Ideal) (FloatOps.addf (F := Ideal) (x0 y) (x1 y)) (x2 (ix2 (0 : Fin 1) (y 1))))
          (FloatOps.ofBits (F := Ideal) .f32 0x00000000#32) := by
  obtain ⟨p, q, rfl⟩ : ∃ (p : Fin 2000) (q : Fin 128), y = ix2 p q := ⟨y 0, y 1, eq_ix2 y⟩
  exact pay_apply x0 x1 x2 p q

/-- So, when the three blocks read the arrays a0, a1, b at the places that belong to array index i — the inputs at i
    itself, the bias at (0, column of i) — the stored entry is G of the arrays at i. -/
theorem point_eq (a0 a1 : S100000x128.Idx → Ideal .f32) (b : S1x128.Idx → Ideal .f32)
    (x0 x1 : Vec Ideal S2000x128 .f32) (x2 : Vec Ideal S1x128 .f32) (y : S2000x128.Idx) (i : S100000x128.Idx)
    (h0 : x0 y = a0 i) (h1 : x1 y = a1 i) (h2 : x2 (ix2 (0 : Fin 1) (y 1)) = b (ix2 (0 : Fin 1) (i 1))) :
    k1_pay1 x0 x1 x2 y = G a0 a1 b i := by
  rw [pay_at, h0, h1, h2]

/-- The block indices, decided over the 50 points: the two inputs and the output are at row block t, column block 0;
    the bias stays at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry y of the output's block at point t sits in the array at row 2000 t + (row of y), same column. -/
theorem out_emb (t : Fin cfg1.N) (y : S2000x128.Idx) :
    (((((cfg1.win 3).blk t).view.emb y : S100000x128.Idx) 0).val = t.val * 2000 + (y 0).val)
    ∧ (((((cfg1.win 3).blk t).view.emb y : S100000x128.Idx) 1).val = (y 1).val) := by
  obtain ⟨-, -, -, -, -, -, e30, e31⟩ := idx_facts t
  constructor
  · show win1_3.index t (0 : Fin 2) * 2000 + 1 * (y 0).val = _; omega
  · show win1_3.index t (1 : Fin 2) * 128 + 1 * (y 1).val = _; omega

section
variable (V : (c : Dev nD) → (b : Ref sig .tc) → Buf (Elt Ideal) ((c : Thread nD τ).loc b))

/-- Entry y of the first input's block at point t is the array's entry at row 2000 t + (row of y), same column. -/
theorem in0_apply (c : Dev nD) (t : Fin cfg1.N) (y : S2000x128.Idx) (i : S100000x128.Idx)
    (h0 : (i 0).val = t.val * 2000 + (y 0).val) (h1 : (i 1).val = (y 1).val) :
    (iblk1 (F := Ideal) V c 0 t : Vec Ideal S2000x128 .f32) y = (V c (Pipeline.arrRef spec1 0) : S100000x128.Idx → Ideal .f32) i := by
  obtain ⟨e00, e01, -⟩ := idx_facts t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- The same for the second input. -/
theorem in1_apply (c : Dev nD) (t : Fin cfg1.N) (y : S2000x128.Idx) (i : S100000x128.Idx)
    (h0 : (i 0).val = t.val * 2000 + (y 0).val) (h1 : (i 1).val = (y 1).val) :
    (iblk1 (F := Ideal) V c 1 t : Vec Ideal S2000x128 .f32) y = (V c (Pipeline.arrRef spec1 1) : S100000x128.Idx → Ideal .f32) i := by
  obtain ⟨-, -, e10, e11, -⟩ := idx_facts t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 2000 + 1 * (y 0).val = (i 0).val; omega
  | ⟨1, _⟩ => show win1_1.index t (1 : Fin 2) * 128 + 1 * (y 1).val = (i 1).val; omega

/-- The bias block is the whole one-row array at every point: its entry at column k is the array's. -/
theorem bias_apply (c : Dev nD) (t : Fin cfg1.N) (y i : S1x128.Idx) (h1 : (i 1).val = (y 1).val) :
    (iblk1 (F := Ideal) V c 2 t : Vec Ideal S1x128 .f32) y = (V c (Pipeline.arrRef spec1 2) : S1x128.Idx → Ideal .f32) i := by
  obtain ⟨-, -, -, -, e20, e21, -⟩ := idx_facts t
  have hy : (y 0).val < 1 := idx2_lt0 y
  have hi : (i 0).val < 1 := idx2_lt0 i
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 1 + 1 * (y 0).val = (i 0).val; omega
  | ⟨1, _⟩ => show win1_2.index t (1 : Fin 2) * 128 + 1 * (y 1).val = (i 1).val; omega

/-- What point t writes back is block t of the function G of the entry contents. -/
theorem flushed_eq (c : Dev nD) (t : Fin cfg1.N) :
    (dat1 (F := Ideal) V c).flushed 3 t
      = ((cfg1.win 3).blk t).view.read (Elt Ideal)
          (G (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zeros]
  simp only [View.ld_unit_zero (S := S2000x128) zeros, View.ld_unit_zero (S := S1x128) zeros]
  funext j
  obtain ⟨o0, o1⟩ := out_emb t ((cfg1.win 3).xinj (grid1.coords t) j)
  exact point_eq _ _ _ _ _ _ ((cfg1.win 3).xinj (grid1.coords t) j) (((cfg1.win 3).blk t).view.emb j)
    (in0_apply V c t _ _ o0 o1) (in1_apply V c t _ _ o0 o1) (bias_apply V c t _ _ o1)

/-- An index of the array is in point t's block iff each coordinate is in the block's range on its axis. -/
theorem mem_blk (t : Fin cfg1.N) (i : S100000x128.Idx) :
    i ∈ ((cfg1.win 3).blk t).view.set
      ↔ ∀ a : Fin 2, win1_3.index t a * S2000x128.size a ≤ (i a).val ∧ (i a).val < win1_3.index t a * S2000x128.size a + S2000x128.size a := by
  show i ∈ ((View.whole main_v48).slice (win1_3.rect t)).set ↔ _
  rw [View.set_slice_whole, Rect.mem_set_unit]
  exact Iff.rfl

/-- Row r of the array lies in the block of point r / 2000 (100000 = 50 · 2000), which is written back. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := rfl
  let t : Fin cfg1.N := ⟨(i 0).val / 2000, by rw [hN]; omega⟩
  obtain ⟨e00, e01, e10, e11, e20, e21, e30, e31⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The output array after the region: entry (r, k) is max ((agg (r, k) + hscaled (r, k)) + bias (0, k), 0) of the
    contents the region was entered with. -/
theorem arr (c : Dev nD) :
    (dat1 (F := Ideal) V c).arrAt 3 cfg1.N
      = fun i => FloatOps.maximumf (F := Ideal)
          (FloatOps.addf (F := Ideal) (FloatOps.addf (F := Ideal) (V c (Pipeline.arrRef spec1 0) i) (V c (Pipeline.arrRef spec1 1) i))
            (V c (Pipeline.arrRef spec1 2) (ix2 (0 : Fin 1) (i 1))))
          (FloatOps.ofBits (F := Ideal) .f32 0x00000000#32) :=
  (dat1 (F := Ideal) V c).arrAt_eq_of_cover 3
    (G (V c (Pipeline.arrRef spec1 0)) (V c (Pipeline.arrRef spec1 1)) (V c (Pipeline.arrRef spec1 2)))
    (fun t _ => flushed_eq V c t) cover

end

end Cert.KernelIdeal.Epilogue1

end
-- ==== Proof.FirstLayer.lean ====
/-
  Region 1's exit, read against the reference's stages: the first layer's output.

  Region 1 adds, entry by entry, the aggregate, the self-loop term and the bias of the entry's column, and takes the
  maximum with zero. The reference adds the same three terms in the same grouping — (aggregate + self-loop) + bias,
  the bias broadcast along the rows — and applies `relu`, which is the maximum with a zero constant. With the three
  operands equal at the region's entry, the output array is the reference's stage. The comparison is made over
  arbitrary arrays standing for the aggregate and the self-loop term: only their names enter, never their entries.
  The buffers later segments read are not the region's arrays, so they keep their contents.
-/
import proofs.«117166_j67396626808850_1_alg».proof.Proof.FirstAggregate
import proofs.«117166_j67396626808850_1_alg».proof.Proof.Epilogue1
import Idealize.ShloMosaic.Lib.ValueLayout

set_option maxRecDepth 16384

noncomputable section

namespace Cert.KernelIdeal.FirstLayer

open Cert.KernelIdeal Cert.KernelIdeal.Gen Cert.ReferenceIdeal.ReadP Cert.KernelIdeal.FirstProduct
open Idealize.ShloMosaic Idealize.ShloMosaic.TcCoe Idealize.ShloMosaic.ValueIdx Idealize.ShloMosaic.StableHlo Idealize.SL.Sem

/-- The bias re-laid as a one-row matrix, read in its one row at column q, is the reference's bias broadcast to a
    row and then along the rows, read at any entry of column q. -/
theorem bias_at (x3 : (⟨Cert.ReferenceIdeal.S128, .f32⟩ : BufTy).Contents (Elt Ideal)) (i : Cert.ReferenceIdeal.S100000x128.Idx) :
    (shapeCast S1x128 x3 shapeCasts_S128_S1x128 : S1x128.Idx → EReal) (ix2 (0 : Fin 1) (i 1)) = val_main_v49 (F := Ideal) x3 i := by
  rw [val_main_v49_apply, val_main_v48_apply]
  refine (shapeCast_a_1a_apply x3 shapeCasts_S128_S1x128 (0 : Fin 1) (i 1)).trans ?_
  refine congrArg x3 (funext fun a => Fin.ext ?_)
  match a with
  | ⟨0, _⟩ => rfl

/-- The epilogue's whole-array function of ANY two summands `A`, `H` that are the reference's aggregate and self-loop
    stages, and of a one-row bias `B` that reads as the reference's broadcast bias, is the reference's `relu` stage:
    the same three additions in the same grouping, then the maximum with zero. -/
theorem whole_eq (A H : S100000x128.Idx → Ideal .f32) (B : S1x128.Idx → Ideal .f32)
    (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (hA : val_main_v42 (F := Ideal) x0 x1 x2 = A) (hH : val_main_v46 (F := Ideal) x0 x1 x2 = H)
    (hB : ∀ i : Cert.ReferenceIdeal.S100000x128.Idx, val_main_v49 (F := Ideal) x3 i = B (ix2 (0 : Fin 1) (i 1))) :
    Epilogue1.G A H B = val_main_v51 (F := Ideal) x0 x1 x2 x3 := by
  funext i
  rw [val_main_v51_apply, val_main_v50_apply, val_main_v47_apply, val_main_call1_v0_apply, val_main_call1_cst_apply, hA, hH, hB]

variable (m : (ℓ : Loc nD τ sig) → Buf (Elt Ideal) ℓ) (ρ : Dev nD → PrngReg) (c : Dev nD)

/-- The first layer's output, as the reference computes it. -/
theorem exit_h1 : W6 m ρ c (Proc.devRef .tc main_v48) = val_main_v51 (F := Ideal) (a0 m c) (a1 m c) (a2 m c) (a3 m c) := by
  refine (W6_arr m ρ c 3).trans ?_
  refine (Epilogue1.arr (V5 m ρ) c).trans ?_
  refine whole_eq _ _ _ _ _ _ _ (FirstAggregate.entry_agg m ρ c).symm (FirstAggregate.entry_self m ρ c).symm fun i => ?_
  refine (bias_at (a3 m c) i).symm.trans ?_
  exact congrFun (FirstAggregate.entry_bias m ρ c).symm (ix2 (0 : Fin 1) (i 1))

theorem exit_arg4 : W6 m ρ c (Proc.devRef .tc main_arg4) = a4 m c :=
  (W6_of_ne m ρ c main_arg4 (by decide)).trans (FirstAggregate.entry_arg4 m ρ c)
theorem exit_arg5 : W6 m ρ c (Proc.devRef .tc main_arg5) = a5 m c :=
  (W6_of_ne m ρ c main_arg5 (by decide)).trans (FirstAggregate.entry_arg5 m ρ c)
theorem exit_src : W6 m ρ c (Proc.devRef .tc main_v1) = val_main_v1 (F := Ideal) (a1 m c) :=
  (W6_of_ne m ρ c main_v1 (by decide)).trans (FirstAggregate.entry_src m ρ c)
theorem exit_dst : W6 m ρ c (Proc.devRef .tc main_v3) = val_main_v3 (F := Ideal) (a1 m c) :=
  (W6_of_ne m ρ c main_v3 (by decide)).trans (FirstAggregate.entry_dst m ρ c)

end Cert.KernelIdeal.FirstLayer

end
-- ==== Proof.Linear2.lean ====
/-
  Region 2 as one whole-array function: the second layer's linear map.

  The same walk as the first layer's, one width down: 50 blocks of 2000 rows of the first layer's output h1
  (128 columns), each multiplied by the whole of `W2` into a zero accumulator and written back as the same rows of a
  64-column array. The body first re-reads its block at its own shape, which changes nothing; the format changes are
  the identity over the extended reals; entry (p, q) of a block's product is the sum over the shared axis of
  h1 (p, k) · W2 (k, q), a function of row p alone. The blocks tile the rows, so the output array ends holding the
  product of the whole arrays.
-/
import proofs.«117166_j67396626808850_1_alg».proof.Proof.Gen.KernelIdeal.Frame
import proofs.«117166_j67396626808850_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The rows-by-columns product of two whole arrays over the extended reals, entry by entry. -/
def prod (x : S100000x128.Idx → EReal) (w : S128x64.Idx → EReal) : S100000x64.Idx → EReal :=
  fun i => ∑ k : Fin 128, x (ix2 (i 0) k) * w (ix2 k (i 1))

theorem hz : (![0, 0] : Fin 2 → Nat) = fun _ => 0 := funext fun a => by fin_cases a <;> rfl

/-- The body's stored value at (p, q): the re-reading at the same shape and the format changes drop out and the product into the zero accumulator is the
    sum over the shared axis. -/
theorem pay_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) := by
  unfold k2_pay1
  refine (Cert.LibPlainMatmul.matmul_zero_plain _ _ _ p q).trans ?_
  refine Finset.sum_congr rfl fun k _ => ?_
  show (shapeCast S2000x128 x0 shapeCasts_S2000x128_S2000x128) (ix2 p k) * x1 (ix2 k q) = _
  rw [shapeCast_self]

/-- Where the windows' blocks sit: block `t` of `x` and of the output starts at row 2000·t, column 0; the weight's
    one block is the whole of it. Decided once over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The left operand `x` as the region finds it, as a function on its index type. -/
abbrev inL (c : Dev nD) : S100000x128.Idx → EReal := V c main_v48
/-- The right operand `W1` as the region finds it. -/
abbrev inR (c : Dev nD) : S128x64.Idx → EReal := V c main_arg4

/-- What point `t` writes back is block `t` of the product of the arrays as the region finds them. -/
theorem flushed_eq (c : Dev nD) (t : Fin cfg2.N) :
    (dat2 (F := Ideal) V c).flushed 2 t
      = ((cfg2.win 2).blk t).view.read (Elt Ideal) (prod (inL V c) (inR V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨e00, e01, e10, e11, e20, e21⟩ := idx_facts t
  funext j
  obtain ⟨p, q, rfl⟩ : ∃ (p : Fin 2000) (q : Fin 64), j = ix2 p q := ⟨j 0, j 1, eq_ix2 j⟩
  refine (pay_apply _ _ p q).trans ?_
  show (∑ k : Fin 128, inL V c (((cfg2.win 0).blk t).view.emb (ix2 p k)) * inR V c (((cfg2.win 1).blk t).view.emb (ix2 k q)))
      = ∑ k : Fin 128, inL V c (ix2 ((((cfg2.win 2).blk t).view.emb (ix2 p q)) 0) k) * inR V c (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [h0, h1]
  rfl

/-- An index of the output is in point `t`'s block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v49).slice (win2_2.rect t)).set ↔ _
  rw [View.set_slice_whole, Rect.mem_set_unit]
  exact Iff.rfl

/-- Row r is in the block of point r / 2000: the 50 blocks tile the 100000 rows. -/
theorem cover (i : S100000x64.Idx) : ∃ t : Fin cfg2.N, (cfg2.win 2).flush t = true ∧ i ∈ ((cfg2.win 2).blk t).view.set := by
  have hN : cfg2.N = 50 := N_2
  have hi0 : (i 0).val < 100000 := (i 0).isLt
  have hi1 : (i 1).val < 64 := (i 1).isLt
  refine ⟨⟨(i 0).val / 2000, by rw [hN]; omega⟩, flush2_2 _, ?_⟩
  rw [mem_blk]
  obtain ⟨-, -, -, -, e20, e21⟩ := idx_facts ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e20]; show (i 0).val / 2000 * 2000 ≤ (i 0).val ∧ (i 0).val < (i 0).val / 2000 * 2000 + 2000; omega
  | ⟨1, _⟩ => show win2_2.index _ (1 : Fin 2) * 64 ≤ (i 1).val ∧ (i 1).val < win2_2.index _ (1 : Fin 2) * 64 + 64; rw [e21]; omega

/-- The output array after the region: the product of `x` and `W1` as the region finds them. -/
theorem arr (c : Dev nD) : (dat2 (F := Ideal) V c).arrAt 2 cfg2.N = prod (inL V c) (inR V c) :=
  (dat2 V c).arrAt_eq_of_cover 2 (prod (inL V c) (inR V c)) (fun t _ => flushed_eq V c t) cover

end Cert.KernelIdeal.Linear2

end
-- ==== Proof.SecondProduct.lean ====
/-
  Region 2's exit, read against the reference's stages: the second layer's linear map.

  Region 2 multiplies the first layer's output by `W2`, block of rows by block of rows, and its output array ends
  holding the product of the whole arrays. The reference's second `dot_general` is, entry by entry, the same sum
  over the shared axis of h1 (p, k) · W2 (k, q) on the extended reals, and its left operand is the stage the first
  layer's output was shown equal to. The edge rows and the second bias are not among the region's arrays.
-/
import proofs.«117166_j67396626808850_1_alg».proof.Proof.FirstLayer
import proofs.«117166_j67396626808850_1_alg».proof.Proof.Linear2

set_option maxRecDepth 16384

noncomputable section

namespace Cert.KernelIdeal.SecondProduct

open Cert.KernelIdeal Cert.KernelIdeal.Gen Cert.ReferenceIdeal.ReadP Cert.KernelIdeal.FirstProduct
open Idealize.ShloMosaic Idealize.ShloMosaic.TcCoe Idealize.ShloMosaic.ValueIdx Idealize.ShloMosaic.StableHlo Idealize.SL.Sem
open scoped BigOperators

/-- The kernel's whole-array product of the first layer's output and `W2` is the reference's second `dot_general`
    stage: the same sum at every entry (stated over any array \`y\` that is the reference's first-layer stage). -/
theorem prod_eq (y : S100000x128.Idx → EReal)
    (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (hy : val_main_v51 (F := Ideal) x0 x1 x2 x3 = y) :
    Linear2.prod y x4 = val_main_v52 (F := Ideal) x0 x1 x2 x3 x4 := by
  funext i
  rw [val_main_v52_apply, hy]
  show (∑ k : Fin 128, y (ix2 (i 0) k) * x4 (ix2 k (i 1))) = _
  refine Finset.sum_congr rfl fun k _ => ?_
  have el : ix2 (i 0) k = lidx_main_v52 i k := funext fun a => Fin.ext (by
    match a with
    | ⟨0, _⟩ => rfl
    | ⟨1, _⟩ => rfl)
  have er : ix2 k (i 1) = ridx_main_v52 i k := funext fun a => Fin.ext (by
    match a with
    | ⟨0, _⟩ => rfl
    | ⟨1, _⟩ => rfl)
  exact congrArg₂ (· * ·) (congrArg y el) (congrArg x4 er)

variable (m : (ℓ : Loc nD τ sig) → Buf (Elt Ideal) ℓ) (ρ : Dev nD → PrngReg) (c : Dev nD)

/-- h2 = h1 · W2, as the reference computes it. -/
theorem exit_h2 : W7 m ρ c (Proc.devRef .tc main_v49)
    = val_main_v52 (F := Ideal) (a0 m c) (a1 m c) (a2 m c) (a3 m c) (a4 m c) := by
  refine (W7_arr m ρ c 2).trans ?_
  refine (Linear2.arr (V6 m ρ) c).trans ?_
  show Linear2.prod (W6 m ρ c (Proc.devRef .tc main_v48)) (W6 m ρ c (Proc.devRef .tc main_arg4)) = _
  rw [FirstLayer.exit_arg4]
  exact prod_eq _ _ _ _ _ _ (FirstLayer.exit_h1 m ρ c).symm

theorem exit_arg5 : W7 m ρ c (Proc.devRef .tc main_arg5) = a5 m c :=
  (W7_of_ne m ρ c main_arg5 (by decide)).trans (FirstLayer.exit_arg5 m ρ c)
theorem exit_src : W7 m ρ c (Proc.devRef .tc main_v1) = val_main_v1 (F := Ideal) (a1 m c) :=
  (W7_of_ne m ρ c main_v1 (by decide)).trans (FirstLayer.exit_src m ρ c)
theorem exit_dst : W7 m ρ c (Proc.devRef .tc main_v3) = val_main_v3 (F := Ideal) (a1 m c) :=
  (W7_of_ne m ρ c main_v3 (by decide)).trans (FirstLayer.exit_dst m ρ c)

end Cert.KernelIdeal.SecondProduct

end
-- ==== Proof.SecondAggregate.lean ====
/-
  Region 3's entry, read against the reference's stages.

  Between regions 2 and 3 the host repeats, one width down and on h2 = h1 · W2, the stretch that fed the first
  epilogue: the normalized sum over incoming edges scattered to the targets, and the self-loop term h2 · d^(-1). Again
  the kernel and the reference spell it with the same operations on the same operands, and the operands agree at the
  boundary after region 2, so the results agree. The second bias reaches the region re-laid as a one-row matrix.

  Read in the same three steps as the first layer's stretch: the degree, its test and d^(-1/2); the called function
  that selects between d^(-1/2) and 0, where the moves between tensor types and buffer types are dropped; the rest.
-/
import proofs.«117166_j67396626808850_1_alg».proof.Proof.SecondProduct
import proofs.«117166_j67396626808850_1_alg».proof.Proof.WhereCalls

set_option maxRecDepth 16384

noncomputable section

namespace Cert.KernelIdeal.SecondAggregate

open Cert.KernelIdeal Cert.KernelIdeal.Gen Cert.ReferenceIdeal.ReadP Cert.KernelIdeal.FirstProduct
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the call -/

set_option maxHeartbeats 1000000 in
/-- Where the degree is positive. -/
theorem mid_pos : W8 m ρ c (Proc.devRef .tc main_v57) = val_main_v60 (F := Ideal) (a1 m c) := by
  after_results_simp
  rw [SecondProduct.exit_dst]
  rfl
set_option maxHeartbeats 1000000 in
/-- d^(-1/2). -/
theorem mid_rsqrt : W8 m ρ c (Proc.devRef .tc main_v58) = val_main_v61 (F := Ideal) (a1 m c) := by
  after_results_simp
  rw [SecondProduct.exit_dst]
  rfl
set_option maxHeartbeats 1000000 in
theorem mid_zero : W8 m ρ c (Proc.devRef .tc main_cst_14) = val_main_cst_14 (F := Ideal) := by
  after_results_simp
  rfl

/-! ## After the call -/

set_option maxHeartbeats 1000000 in
/-- d^(-1/2) where d > 0, and 0 elsewhere. -/
theorem call_dinv : W9 m ρ c (Proc.devRef .tc main_v59) = val_main_v62 (F := Ideal) (a1 m c) := by
  have h12 := mid_pos m ρ c
  have h13 := mid_rsqrt m ρ c
  have h0 := mid_zero m ρ c
  show StableHlo.after hostOps3_1 (W8 m ρ c) (Proc.devRef .tc main_v59) = _
  generalize W8 m ρ c = Wv at h12 h13 h0 ⊢
  after_results_simp
  rw [h12, h13, h0]
  refine (WhereCalls.to_main_v59 _).trans ?_
  show select (val_main_v60 (F := Ideal) (a1 m c)) (val_main_v61 (F := Ideal) (a1 m c))
      (broadcastInDim S100000 ![] bcast_S_S100000 (val_main_cst_14 (F := Ideal))) = _
  rfl
set_option maxHeartbeats 1000000 in
theorem call_h : W9 m ρ c (Proc.devRef .tc main_v49)
    = val_main_v52 (F := Ideal) (a0 m c) (a1 m c) (a2 m c) (a3 m c) (a4 m c) := by
  after_results_simp
  exact SecondProduct.exit_h2 m ρ c
set_option maxHeartbeats 1000000 in
theorem call_src : W9 m ρ c (Proc.devRef .tc main_v1) = val_main_v1 (F := Ideal) (a1 m c) := by
  after_results_simp
  exact SecondProduct.exit_src m ρ c
set_option maxHeartbeats 1000000 in
theorem call_dst : W9 m ρ c (Proc.devRef .tc main_v3) = val_main_v3 (F := Ideal) (a1 m c) := by
  after_results_simp
  exact SecondProduct.exit_dst m ρ c

/-! ## Region 3's entry -/

set_option maxHeartbeats 2000000 in
/-- The normalized sum over incoming edges, second layer. -/
theorem entry_agg : W10 m ρ c (Proc.devRef .tc main_v87)
    = val_main_v90 (F := Ideal) (a0 m c) (a1 m c) (a2 m c) (a3 m c) (a4 m c) := by
  have h14 := call_dinv m ρ c
  have h4 := call_h m ρ c
  have h1 := call_src m ρ c
  have h3 := call_dst m ρ c
  show StableHlo.after hostOps3_2 (W9 m ρ c) (Proc.devRef .tc main_v87) = _
  generalize W9 m ρ c = Wv at h14 h4 h1 h3 ⊢
  after_results_simp
  rw [h14, h4, h1, h3]
  rfl

set_option maxHeartbeats 2000000 in
/-- The self-loop term, second layer. -/
theorem entry_self : W10 m ρ c (Proc.devRef .tc main_v91)
    = val_main_v94 (F := Ideal) (a0 m c) (a1 m c) (a2 m c) (a3 m c) (a4 m c) := by
  have h14 := call_dinv m ρ c
  have h4 := call_h m ρ c
  show StableHlo.after hostOps3_2 (W9 m ρ c) (Proc.devRef .tc main_v91) = _
  generalize W9 m ρ c = Wv at h14 h4 ⊢
  after_results_simp
  rw [h14, h4]
  rfl

set_option maxHeartbeats 1000000 in
/-- The second bias, re-laid as a one-row matrix. -/
theorem entry_bias : W10 m ρ c (Proc.devRef .tc main_v92) = (shapeCast S1x64 (a5 m c) shapeCasts_S64_S1x64 : S1x64.Idx → EReal) := by
  after_results_simp
  rw [SecondProduct.exit_arg5]
  rfl

end Cert.KernelIdeal.SecondAggregate

end
-- ==== Proof.Epilogue3.lean ====
/- The second epilogue region, read as ONE function of the arrays it finds.

   The region walks the 100000 rows of three arrays in 50 blocks of 2000 rows. At block t it holds rows
   2000 t … 2000 t + 1999 of the aggregate and of the scaled features, and the whole bias row; it leaves
   max ((agg + hscaled) + bias, 0) in the same rows of the output. Every entry of the output therefore depends
   only on the entries of the two inputs at the SAME index and on the bias at the same column, and the 50 row
   blocks tile the array: after the region the output is that one function of the entry contents. -/
import proofs.«117166_j67396626808850_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Epilogue3

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-- The zero offsets of a whole-buffer access, as the constant function. -/
theorem zeros : (![0, 0] : Fin 2 → Nat) = fun _ => 0 := funext fun a => by fin_cases a <;> rfl

/-- The output as one function of the three arrays: entry (r, k) is max ((a0 (r, k) + a1 (r, k)) + b (0, k), 0). -/
abbrev G (a0 a1 : S100000x64.Idx → Ideal .f32) (b : S1x64.Idx → Ideal .f32) : S100000x64.Idx → Ideal .f32 :=
  fun i => FloatOps.maximumf (F := Ideal) (FloatOps.addf (F := Ideal) (FloatOps.addf (F := Ideal) (a0 i) (a1 i)) (b (ix2 (0 : Fin 1) (i 1))))
    (FloatOps.ofBits (F := Ideal) .f32 0x00000000#32)

/-- What the body stores, read at entry (p, q) of a block: the two row blocks added at (p, q), the bias row added at
    column q (the one row is repeated down the 2000 rows), and the maximum with zero. -/
theorem pay_apply (x0 x1 : Vec Ideal S2000x64 .f32) (x2 : Vec Ideal S1x64 .f32) (p : Fin 2000) (q : Fin 64) :
    k3_pay1 x0 x1 x2 (ix2 p q)
      = FloatOps.maximumf (F := Ideal) (FloatOps.addf (F := Ideal) (FloatOps.addf (F := Ideal) (x0 (ix2 p q)) (x1 (ix2 p q))) (x2 (ix2 (0 : Fin 1) q)))
          (FloatOps.ofBits (F := Ideal) .f32 0x00000000#32) := by
  unfold k3_pay1
  show FloatOps.maximumf (F := Ideal) (FloatOps.addf (F := Ideal) (FloatOps.addf (F := Ideal) (shapeCast S2000x64 x0 _ (ix2 p q)) (shapeCast S2000x64 x1 _ (ix2 p q)))
      (broadcastTo S2000x64 (shapeCast S1x64 x2 _) _ (ix2 p q))) _ = _
  rw [shapeCast_self, shapeCast_self, shapeCast_self, broadcastTo_1b_ab_apply]
  rfl

/-- The same at any index of the block. -/
theorem pay_at (x0 x1 : Vec Ideal S2000x64 .f32) (x2 : Vec Ideal S1x64 .f32) (y : S2000x64.Idx) :
    k3_pay1 x0 x1 x2 y
      = FloatOps.maximumf (F := Ideal) (FloatOps.addf (F := Ideal) (FloatOps.addf (F := Ideal) (x0 y) (x1 y)) (x2 (ix2 (0 : Fin 1) (y 1))))
          (FloatOps.ofBits (F := Ideal) .f32 0x00000000#32) := by
  obtain ⟨p, q, rfl⟩ : ∃ (p : Fin 2000) (q : Fin 64), y = ix2 p q := ⟨y 0, y 1, eq_ix2 y⟩
  exact pay_apply x0 x1 x2 p q

/-- So, when the three blocks read the arrays a0, a1, b at the places that belong to array index i — the inputs at i
    itself, the bias at (0, column of i) — the stored entry is G of the arrays at i. -/
theorem point_eq (a0 a1 : S100000x64.Idx → Ideal .f32) (b : S1x64.Idx → Ideal .f32)
    (x0 x1 : Vec Ideal S2000x64 .f32) (x2 : Vec Ideal S1x64 .f32) (y : S2000x64.Idx) (i : S100000x64.Idx)
    (h0 : x0 y = a0 i) (h1 : x1 y = a1 i) (h2 : x2 (ix2 (0 : Fin 1) (y 1)) = b (ix2 (0 : Fin 1) (i 1))) :
    k3_pay1 x0 x1 x2 y = G a0 a1 b i := by
  rw [pay_at, h0, h1, h2]

/-- The block indices, decided over the 50 points: the two inputs and the output are at row block t, column block 0;
    the bias stays at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry y of the output's block at point t sits in the array at row 2000 t + (row of y), same column. -/
theorem out_emb (t : Fin cfg3.N) (y : S2000x64.Idx) :
    (((((cfg3.win 3).blk t).view.emb y : S100000x64.Idx) 0).val = t.val * 2000 + (y 0).val)
    ∧ (((((cfg3.win 3).blk t).view.emb y : S100000x64.Idx) 1).val = (y 1).val) := by
  obtain ⟨-, -, -, -, -, -, e30, e31⟩ := idx_facts t
  constructor
  · show win3_3.index t (0 : Fin 2) * 2000 + 1 * (y 0).val = _; omega
  · show win3_3.index t (1 : Fin 2) * 64 + 1 * (y 1).val = _; omega

section
variable (V : (c : Dev nD) → (b : Ref sig .tc) → Buf (Elt Ideal) ((c : Thread nD τ).loc b))

/-- Entry y of the first input's block at point t is the array's entry at row 2000 t + (row of y), same column. -/
theorem in0_apply (c : Dev nD) (t : Fin cfg3.N) (y : S2000x64.Idx) (i : S100000x64.Idx)
    (h0 : (i 0).val = t.val * 2000 + (y 0).val) (h1 : (i 1).val = (y 1).val) :
    (iblk3 (F := Ideal) V c 0 t : Vec Ideal S2000x64 .f32) y = (V c (Pipeline.arrRef spec3 0) : S100000x64.Idx → Ideal .f32) i := by
  obtain ⟨e00, e01, -⟩ := idx_facts t
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 2000 + 1 * (y 0).val = (i 0).val; omega
  | ⟨1, _⟩ => show win3_0.index t (1 : Fin 2) * 64 + 1 * (y 1).val = (i 1).val; omega

/-- The same for the second input. -/
theorem in1_apply (c : Dev nD) (t : Fin cfg3.N) (y : S2000x64.Idx) (i : S100000x64.Idx)
    (h0 : (i 0).val = t.val * 2000 + (y 0).val) (h1 : (i 1).val = (y 1).val) :
    (iblk3 (F := Ideal) V c 1 t : Vec Ideal S2000x64 .f32) y = (V c (Pipeline.arrRef spec3 1) : S100000x64.Idx → Ideal .f32) i := by
  obtain ⟨-, -, e10, e11, -⟩ := idx_facts t
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 2000 + 1 * (y 0).val = (i 0).val; omega
  | ⟨1, _⟩ => show win3_1.index t (1 : Fin 2) * 64 + 1 * (y 1).val = (i 1).val; omega

/-- The bias block is the whole one-row array at every point: its entry at column k is the array's. -/
theorem bias_apply (c : Dev nD) (t : Fin cfg3.N) (y i : S1x64.Idx) (h1 : (i 1).val = (y 1).val) :
    (iblk3 (F := Ideal) V c 2 t : Vec Ideal S1x64 .f32) y = (V c (Pipeline.arrRef spec3 2) : S1x64.Idx → Ideal .f32) i := by
  obtain ⟨-, -, -, -, e20, e21, -⟩ := idx_facts t
  have hy : (y 0).val < 1 := idx2_lt0 y
  have hi : (i 0).val < 1 := idx2_lt0 i
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 1 + 1 * (y 0).val = (i 0).val; omega
  | ⟨1, _⟩ => show win3_2.index t (1 : Fin 2) * 64 + 1 * (y 1).val = (i 1).val; omega

/-- What point t writes back is block t of the function G of the entry contents. -/
theorem flushed_eq (c : Dev nD) (t : Fin cfg3.N) :
    (dat3 (F := Ideal) V c).flushed 3 t
      = ((cfg3.win 3).blk t).view.read (Elt Ideal)
          (G (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zeros]
  simp only [View.ld_unit_zero (S := S2000x64) zeros, View.ld_unit_zero (S := S1x64) zeros]
  funext j
  obtain ⟨o0, o1⟩ := out_emb t ((cfg3.win 3).xinj (grid3.coords t) j)
  exact point_eq _ _ _ _ _ _ ((cfg3.win 3).xinj (grid3.coords t) j) (((cfg3.win 3).blk t).view.emb j)
    (in0_apply V c t _ _ o0 o1) (in1_apply V c t _ _ o0 o1) (bias_apply V c t _ _ o1)

/-- An index of the array is in point t's block iff each coordinate is in the block's range on its axis. -/
theorem mem_blk (t : Fin cfg3.N) (i : S100000x64.Idx) :
    i ∈ ((cfg3.win 3).blk t).view.set
      ↔ ∀ a : Fin 2, win3_3.index t a * S2000x64.size a ≤ (i a).val ∧ (i a).val < win3_3.index t a * S2000x64.size a + S2000x64.size a := by
  show i ∈ ((View.whole main_v93).slice (win3_3.rect t)).set ↔ _
  rw [View.set_slice_whole, Rect.mem_set_unit]
  exact Iff.rfl

/-- Row r of the array lies in the block of point r / 2000 (100000 = 50 · 2000), which is written back. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := rfl
  let t : Fin cfg3.N := ⟨(i 0).val / 2000, by rw [hN]; omega⟩
  obtain ⟨e00, e01, e10, e11, e20, e21, e30, e31⟩ := idx_facts t
  have ht : t.val = (i 0).val / 2000 := rfl
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- The output array after the region: entry (r, k) is max ((agg (r, k) + hscaled (r, k)) + bias (0, k), 0) of the
    contents the region was entered with. -/
theorem arr (c : Dev nD) :
    (dat3 (F := Ideal) V c).arrAt 3 cfg3.N
      = fun i => FloatOps.maximumf (F := Ideal)
          (FloatOps.addf (F := Ideal) (FloatOps.addf (F := Ideal) (V c (Pipeline.arrRef spec3 0) i) (V c (Pipeline.arrRef spec3 1) i))
            (V c (Pipeline.arrRef spec3 2) (ix2 (0 : Fin 1) (i 1))))
          (FloatOps.ofBits (F := Ideal) .f32 0x00000000#32) :=
  (dat3 (F := Ideal) V c).arrAt_eq_of_cover 3
    (G (V c (Pipeline.arrRef spec3 0)) (V c (Pipeline.arrRef spec3 1)) (V c (Pipeline.arrRef spec3 2)))
    (fun t _ => flushed_eq V c t) cover

end

end Cert.KernelIdeal.Epilogue3

end
-- ==== Proof.SecondLayer.lean ====
/-
  Region 3's exit, read against the reference's stages: the result.

  Region 3 is the first epilogue one width down: entry by entry, (aggregate + self-loop) + the bias of the entry's
  column, then the maximum with zero; the reference adds the same terms in the same grouping and applies `relu`. With
  the three operands equal at the region's entry, the result array is the reference's last stage, which is the term
  the reference's run ends at. So the idealized kernel's result buffer ends at the reference's result of the same
  argument arrays. As for the first layer, the comparison is made over arbitrary arrays standing for the two summands.
-/
import proofs.«117166_j67396626808850_1_alg».proof.Proof.SecondAggregate
import proofs.«117166_j67396626808850_1_alg».proof.Proof.Epilogue3
import Idealize.ShloMosaic.Lib.ValueLayout

set_option maxRecDepth 16384

noncomputable section

namespace Cert.KernelIdeal.SecondLayer

open Cert.KernelIdeal Cert.KernelIdeal.Gen Cert.ReferenceIdeal.ReadP Cert.KernelIdeal.FirstProduct
open Idealize.ShloMosaic Idealize.ShloMosaic.TcCoe Idealize.ShloMosaic.ValueIdx Idealize.ShloMosaic.StableHlo Idealize.SL.Sem

/-- The bias re-laid as a one-row matrix, read in its one row at column q, is the reference's bias broadcast to a
    row and then along the rows, read at any entry of column q. -/
theorem bias_at (x5 : (⟨Cert.ReferenceIdeal.S64, .f32⟩ : BufTy).Contents (Elt Ideal)) (i : Cert.ReferenceIdeal.S100000x64.Idx) :
    (shapeCast S1x64 x5 shapeCasts_S64_S1x64 : S1x64.Idx → EReal) (ix2 (0 : Fin 1) (i 1)) = val_main_v97 (F := Ideal) x5 i := by
  rw [val_main_v97_apply, val_main_v96_apply]
  refine (shapeCast_a_1a_apply x5 shapeCasts_S64_S1x64 (0 : Fin 1) (i 1)).trans ?_
  refine congrArg x5 (funext fun a => Fin.ext ?_)
  match a with
  | ⟨0, _⟩ => rfl

/-- The epilogue's whole-array function of ANY two summands `A`, `H` that are the reference's aggregate and self-loop
    stages, and of a one-row bias `B` that reads as the reference's broadcast bias, is the reference's `relu` stage:
    the same three additions in the same grouping, then the maximum with zero. -/
theorem whole_eq (A H : S100000x64.Idx → Ideal .f32) (B : S1x64.Idx → Ideal .f32)
    (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))
    (hA : val_main_v90 (F := Ideal) x0 x1 x2 x3 x4 = A) (hH : val_main_v94 (F := Ideal) x0 x1 x2 x3 x4 = H)
    (hB : ∀ i : Cert.ReferenceIdeal.S100000x64.Idx, val_main_v97 (F := Ideal) x5 i = B (ix2 (0 : Fin 1) (i 1))) :
    Epilogue3.G A H B = val_main_v99 (F := Ideal) x0 x1 x2 x3 x4 x5 := by
  funext i
  rw [val_main_v99_apply, val_main_v98_apply, val_main_v95_apply, val_main_call3_v0_apply, val_main_call3_cst_apply, hA, hH, hB]

variable (m : (ℓ : Loc nD τ sig) → Buf (Elt Ideal) ℓ) (ρ : Dev nD → PrngReg) (c : Dev nD)

/-- The result, as the reference computes it. -/
theorem exit_out : W11 m ρ c (Proc.devRef .tc main_v93) = val_main_v99 (F := Ideal) (a0 m c) (a1 m c) (a2 m c) (a3 m c) (a4 m c) (a5 m c) := by
  refine (W11_arr m ρ c 3).trans ?_
  refine (Epilogue3.arr (V10 m ρ) c).trans ?_
  refine whole_eq _ _ _ _ _ _ _ _ _ (SecondAggregate.entry_agg m ρ c).symm (SecondAggregate.entry_self m ρ c).symm fun i => ?_
  refine (bias_at (a5 m c) i).symm.trans ?_
  exact congrFun (SecondAggregate.entry_bias m ρ c).symm (ix2 (0 : Fin 1) (i 1))

end Cert.KernelIdeal.SecondLayer

end
-- ==== Proof.lean ====
/-
  A two-layer graph convolution: per layer, out = max((A·h + h·d⁻¹) + b, 0) with h = input · W, where A·h sums over
  each node's incoming edges h (source) · d(source)^(-1/2) · d(target)^(-1/2) and d is one plus the in-degree.

  The kernel computes the two products h = input · W in row blocks on the matrix unit (with a change of float format
  that is the identity over the extended reals) and the two sums-with-bias-and-maximum in row blocks, and leaves the
  degree, the normalization, the gather along the sources and the scatter-add to the targets to the host; the reference
  does everything on the host. Over the extended reals the two programs are the same composition, operation by
  operation: a row-blocked product into a zero accumulator is the whole product, entry by entry the sum over the shared
  axis; the blocked sum-and-maximum is the whole one; and the host stretches between are literally the reference's. No
  law of the extended reals beyond that identification is used, so the precondition is never opened.

  The frames of the two kernels are the generated ones; the reference's frame is its run with the result dropped; the
  idealization rewrote nothing, so `preserves` is trivial; `algebraic` pairs the idealized kernel's run, its result
  read segment by segment back to the arguments (Proof/KernelRun … Proof/SecondLayer), with the reference's run.
-/
import proofs.«117166_j67396626808850_1_alg».proof.Defs
import proofs.«117166_j67396626808850_1_alg».proof.Proof.Gen.Kernel
import proofs.«117166_j67396626808850_1_alg».proof.Proof.Gen.Kernel.Skeleton
import proofs.«117166_j67396626808850_1_alg».proof.Proof.Gen.Kernel.Launch
import proofs.«117166_j67396626808850_1_alg».proof.Proof.Gen.Kernel.Points
import proofs.«117166_j67396626808850_1_alg».proof.Proof.Gen.Kernel.Frame
import proofs.«117166_j67396626808850_1_alg».proof.Proof.Gen.KernelIdeal
import proofs.«117166_j67396626808850_1_alg».proof.Proof.Gen.KernelIdeal.Skeleton
import proofs.«117166_j67396626808850_1_alg».proof.Proof.Gen.KernelIdeal.Launch
import proofs.«117166_j67396626808850_1_alg».proof.Proof.Gen.KernelIdeal.Points
import proofs.«117166_j67396626808850_1_alg».proof.Proof.Gen.KernelIdeal.Frame
import proofs.«117166_j67396626808850_1_alg».proof.Proof.Gen.ReferenceIdeal
import proofs.«117166_j67396626808850_1_alg».proof.Proof.Gen.Pre_finite_inputs
import proofs.«117166_j67396626808850_1_alg».proof.Proof.RefRun
import proofs.«117166_j67396626808850_1_alg».proof.Proof.RefRead
import proofs.«117166_j67396626808850_1_alg».proof.Proof.KernelRun
import proofs.«117166_j67396626808850_1_alg».proof.Proof.SecondLayer
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result at the reference's last stage of the argument arrays: the kernel's by the
    segment-by-segment reading of its run, the reference's by its own run, the arguments' agreement rewritten. -/
theorem algebraic : Cert.algebraic_KernelIdeal_ReferenceIdeal := by
  intro m ρ m' ρ' _ hagree
  refine ⟨fun c => Cert.ReferenceIdeal.ReadP.val_main_v99 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.SecondLayer.exit_out m ρ c), (h c).2⟩)
      (Cert.KernelIdeal.Whole.run_named m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v99_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
